-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x64 .f32) (main_arg6 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x64 .f32) (main_arg1 : IVec S2x800000 32) (main_arg2 : FVec F S64x64 .f32) (main_arg3 : FVec F S64 .f32) (main_arg4 : FVec F S64x64 .f32) (main_arg5 : FVec F S2x64 .f32) (main_arg6 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_v13 main_v16
-- ==== Kernel.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S64x2 : Shape := ⟨2, ![64, 2]⟩
abbrev S1x64 : Shape := ⟨2, ![1, 64]⟩
abbrev S1x2 : Shape := ⟨2, ![1, 2]⟩
abbrev S100000x2 : Shape := ⟨2, ![100000, 2]⟩
abbrev S5000x64 : Shape := ⟨2, ![5000, 64]⟩
abbrev S5000x1 : Shape := ⟨2, ![5000, 1]⟩
abbrev S5000x2 : Shape := ⟨2, ![5000, 2]⟩

abbrev nBuf : Space → Nat
  | .hbm => 43
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S100000x64, .f32⟩
  | .hbm, ⟨22, _⟩ => ⟨S800000x1, .i32⟩
  | .hbm, ⟨23, _⟩ => ⟨S100000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S64x64, .f32⟩
  | .hbm, ⟨38, _⟩ => ⟨S64x64, .f32⟩
  | .hbm, ⟨39, _⟩ => ⟨S64x2, .f32⟩
  | .hbm, ⟨40, _⟩ => ⟨S1x64, .f32⟩
  | .hbm, ⟨41, _⟩ => ⟨S1x2, .f32⟩
  | .hbm, ⟨42, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S64x2, .f32⟩
  | .local _ .vmem, ⟨10, _⟩ => ⟨S1x2, .f32⟩
  | .local _ .vmem, ⟨11, _⟩ => ⟨S5000x2, .f32⟩
  | .local _ .vmem, ⟨12, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  transposes_S2x64_S64x2_1_0 : S2x64.Transposes [1, 0] S64x2
  shapeCasts_S64_S1x64 : S64.ShapeCasts S1x64
  shapeCasts_S2_S1x2 : S2.ShapeCasts S1x2
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x2.size a ≤ S64x2.size a
  hwx0_6 : ∀ i : grid0.Coords, EltTy.bits .f32 = 32 ∨ (Rect.block (s := S64x2) S64x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x2.size a ≤ S100000x2.size a
  hwx0_8 : ∀ i : grid0.Coords, EltTy.bits .f32 = 32 ∨ (Rect.block (s := S100000x2) S5000x2.size (cc0_transform_8 i) (hinb0_8 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S64x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S5000x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x64 : Shape := ⟨2, ![64, 64]⟩
abbrev S64 : Shape := ⟨1, ![64]⟩
abbrev S2x64 : Shape := ⟨2, ![2, 64]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S1x64 : Shape := ⟨2, ![1, 64]⟩
abbrev S64x2 : Shape := ⟨2, ![64, 2]⟩
abbrev S100000x2 : Shape := ⟨2, ![100000, 2]⟩
abbrev S1x2 : Shape := ⟨2, ![1, 2]⟩

abbrev nBuf : Space → Nat
  | .hbm => 52
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S2x64, .f32⟩
  | .hbm, ⟨6, _⟩ => ⟨S2, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S100000x64, .f32⟩
  | .hbm, ⟨22, _⟩ => ⟨S800000x1, .i32⟩
  | .hbm, ⟨23, _⟩ => ⟨S100000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S64x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S64x2, .f32⟩
  | .hbm, ⟨48, _⟩ => ⟨S100000x2, .f32⟩
  | .hbm, ⟨49, _⟩ => ⟨S1x2, .f32⟩
  | .hbm, ⟨50, _⟩ => ⟨S100000x2, .f32⟩
  | .hbm, ⟨51, _⟩ => ⟨S100000x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRecip.lean ====
/-
  Dividing by a quantity against multiplying by its reciprocal taken beforehand, on the extended reals.

  Off zero the quotient x / w IS the product x · (1 / w), at every numerator and at an infinite w too (both are
  x · w⁻¹); only at w = 0 do the two conventions part.  A square is non-negative on the extended reals, the infinities
  included (∞·∞ = (-∞)·(-∞) = ∞), so a non-negative multiple of a square plus a positive offset is positive, hence off
  zero: a Gaussian width k·σ² + ε, a variance plus ε.
-/
import Idealize.ShloMosaic.PureOps.Ideal

namespace Idealize.ShloMosaic.Ideal

/-- x · (1 / w) = x / w for w ≠ 0. -/
theorem mul_div_one (x w : EReal) (hw : w ≠ 0) : x * Ideal.div 1 w = Ideal.div x w := by
  unfold Ideal.div
  rw [if_neg hw, if_neg hw, one_mul]

/-- 0 ≤ s · s on the extended reals. -/
theorem ereal_mul_self_nonneg (s : EReal) : 0 ≤ s * s := by
  induction s using EReal.rec with
  | bot => rw [EReal.bot_mul_bot]; exact le_top
  | coe r => rw [← EReal.coe_mul]; exact EReal.coe_nonneg.mpr (mul_self_nonneg r)
  | top => rw [EReal.top_mul_top]; exact le_top

/-- 0 < k · s² + ε for 0 ≤ k and 0 < ε, whatever the extended real s. -/
theorem scaled_square_add_pos {k ε : EReal} (hk : 0 ≤ k) (hε : 0 < ε) (s : EReal) : 0 < k * (s * s) + ε :=
  lt_of_lt_of_le hε (le_add_of_nonneg_left (EReal.mul_nonneg hk (ereal_mul_self_nonneg s)))

end Idealize.ShloMosaic.Ideal
-- ==== Proof.SageSpec.lean ====
/-
  The layer, as one function of whole arrays, in the two arrangements that are compared.

  For node `P` and output channel `q`, with `M` the sums of the neighbours' features, `D` the clamped in-degree
  (at least one), `X` the node features, `Wl`, `Wr` the two 64×64 weights, `bl` the hidden bias, `Wh`, `bh` the head:

      out(P, q) = Σ_j max( Σ_k (M(P,k) / D(P)) · Wl(j,k) + bl(j) + Σ_k X(P,k) · Wr(j,k) , 0 ) · Wh(q,j) + bh(q).

  The tiled arrangement is handed the reciprocal column R(P) = 1 / D(P) and the transposed weights and adds the bias
  after the second product. On the extended reals x · (1 / w) = x / w as soon as w ≠ 0 (both are x · w⁻¹, at an infinite
  x or w too), and addition is commutative and associative, so the two arrangements are the same function. D(P) is a
  maximum with the literal one, hence at least one, hence not zero: nothing about the inputs is needed.
-/
import proofs.«125915_j16913581212178_2_alg».proof.Proof.LibRecip
import Idealize.ShloMosaic.Lib.ValueIdx
import Idealize.ShloMosaic.PureOps.Ideal.Laws

noncomputable section

namespace Cert.Sage

open Idealize.ShloMosaic Idealize.ShloMosaic.ValueIdx

/-- The binary32 word 0x3F800000 is the number one. -/
theorem one_word : Ideal.ofBits .f32 0x3F800000#32 = 1 := by
  simp [Ideal.ofBits, Ideal.ieee, -EReal.coe_mul]; norm_num

/-- A maximum with one is not zero. -/
theorem max_one_ne_zero (d : EReal) : max d (Ideal.ofBits .f32 0x3F800000#32) ≠ 0 := by
  rw [one_word]
  exact ne_of_gt (lt_of_lt_of_le zero_lt_one (le_max_right d 1))

/-- The tiled arrangement at node `P`, channel `q`: the reciprocal column `R`, transposed weights `A`, `B`, `C`,
    bias rows `b`, `c`. -/
def tiledAt (S : (⟨2, ![100000, 64]⟩ : Shape).Idx → EReal) (R : (⟨2, ![100000, 1]⟩ : Shape).Idx → EReal)
    (X : (⟨2, ![100000, 64]⟩ : Shape).Idx → EReal) (A B : (⟨2, ![64, 64]⟩ : Shape).Idx → EReal)
    (C : (⟨2, ![64, 2]⟩ : Shape).Idx → EReal) (b : (⟨2, ![1, 64]⟩ : Shape).Idx → EReal)
    (c : (⟨2, ![1, 2]⟩ : Shape).Idx → EReal) (P : Fin 100000) (q : Fin 2) : EReal :=
  (∑ j : Fin 64, max ((∑ k : Fin 64, (S (ix2 P k) * R (ix2 P (0 : Fin 1))) * A (ix2 k j))
          + (∑ k : Fin 64, X (ix2 P k) * B (ix2 k j)) + b (ix2 (0 : Fin 1) j))
        (Ideal.ofBits .f32 0x00000000#32) * C (ix2 j q))
    + c (ix2 (0 : Fin 1) q)

/-- The tiled arrangement as a whole [100000, 2] array. -/
def tiled (S : (⟨2, ![100000, 64]⟩ : Shape).Idx → EReal) (R : (⟨2, ![100000, 1]⟩ : Shape).Idx → EReal)
    (X : (⟨2, ![100000, 64]⟩ : Shape).Idx → EReal) (A B : (⟨2, ![64, 64]⟩ : Shape).Idx → EReal)
    (C : (⟨2, ![64, 2]⟩ : Shape).Idx → EReal) (b : (⟨2, ![1, 64]⟩ : Shape).Idx → EReal)
    (c : (⟨2, ![1, 2]⟩ : Shape).Idx → EReal) : (⟨2, ![100000, 2]⟩ : Shape).Idx → EReal :=
  fun i => tiledAt S R X A B C b c (i 0) (i 1)

/-- The whole array read at (P, q). -/
theorem tiled_apply (S : (⟨2, ![100000, 64]⟩ : Shape).Idx → EReal) (R : (⟨2, ![100000, 1]⟩ : Shape).Idx → EReal)
    (X : (⟨2, ![100000, 64]⟩ : Shape).Idx → EReal) (A B : (⟨2, ![64, 64]⟩ : Shape).Idx → EReal)
    (C : (⟨2, ![64, 2]⟩ : Shape).Idx → EReal) (b : (⟨2, ![1, 64]⟩ : Shape).Idx → EReal)
    (c : (⟨2, ![1, 2]⟩ : Shape).Idx → EReal) (P : Fin 100000) (q : Fin 2) :
    tiled S R X A B C b c (ix2 P q) = tiledAt S R X A B C b c P q := rfl

/-- The layer at node `P`, channel `q`, in the plain arrangement. -/
def layerAt (M : (⟨2, ![100000, 64]⟩ : Shape).Idx → EReal) (D : (⟨1, ![100000]⟩ : Shape).Idx → EReal)
    (X : (⟨2, ![100000, 64]⟩ : Shape).Idx → EReal) (Wl : (⟨2, ![64, 64]⟩ : Shape).Idx → EReal)
    (bl : (⟨1, ![64]⟩ : Shape).Idx → EReal) (Wr : (⟨2, ![64, 64]⟩ : Shape).Idx → EReal)
    (Wh : (⟨2, ![2, 64]⟩ : Shape).Idx → EReal) (bh : (⟨1, ![2]⟩ : Shape).Idx → EReal) (P : Fin 100000) (q : Fin 2) : EReal :=
  (∑ j : Fin 64, max ((∑ k : Fin 64, Ideal.div (M (ix2 P k)) (D (ix1 P)) * Wl (ix2 j k)) + bl (ix1 j)
          + (∑ k : Fin 64, X (ix2 P k) * Wr (ix2 j k)))
        (Ideal.ofBits .f32 0x00000000#32) * Wh (ix2 q j))
    + bh (ix1 q)

/-- The layer as a whole [100000, 2] array. -/
def layer (M : (⟨2, ![100000, 64]⟩ : Shape).Idx → EReal) (D : (⟨1, ![100000]⟩ : Shape).Idx → EReal)
    (X : (⟨2, ![100000, 64]⟩ : Shape).Idx → EReal) (Wl : (⟨2, ![64, 64]⟩ : Shape).Idx → EReal)
    (bl : (⟨1, ![64]⟩ : Shape).Idx → EReal) (Wr : (⟨2, ![64, 64]⟩ : Shape).Idx → EReal)
    (Wh : (⟨2, ![2, 64]⟩ : Shape).Idx → EReal) (bh : (⟨1, ![2]⟩ : Shape).Idx → EReal) :
    (⟨2, ![100000, 2]⟩ : Shape).Idx → EReal :=
  fun i => layerAt M D X Wl bl Wr Wh bh (i 0) (i 1)

/-- At one node and channel: the tiled arrangement is the layer, when the column is the reciprocal of a degree that
    is not zero, the weights are the transposes and the bias rows the biases. -/
theorem tiledAt_eq_layerAt
    {S : (⟨2, ![100000, 64]⟩ : Shape).Idx → EReal} {R : (⟨2, ![100000, 1]⟩ : Shape).Idx → EReal}
    {X : (⟨2, ![100000, 64]⟩ : Shape).Idx → EReal} {A B : (⟨2, ![64, 64]⟩ : Shape).Idx → EReal}
    {C : (⟨2, ![64, 2]⟩ : Shape).Idx → EReal} {b : (⟨2, ![1, 64]⟩ : Shape).Idx → EReal}
    {c : (⟨2, ![1, 2]⟩ : Shape).Idx → EReal}
    {D : (⟨1, ![100000]⟩ : Shape).Idx → EReal} {Wl Wr : (⟨2, ![64, 64]⟩ : Shape).Idx → EReal}
    {bl : (⟨1, ![64]⟩ : Shape).Idx → EReal} {Wh : (⟨2, ![2, 64]⟩ : Shape).Idx → EReal}
    {bh : (⟨1, ![2]⟩ : Shape).Idx → EReal}
    (hR : ∀ P : Fin 100000, R (ix2 P (0 : Fin 1)) = Ideal.div 1 (D (ix1 P)))
    (hD : ∀ P : Fin 100000, D (ix1 P) ≠ 0)
    (hA : ∀ (k j : Fin 64), A (ix2 k j) = Wl (ix2 j k))
    (hB : ∀ (k j : Fin 64), B (ix2 k j) = Wr (ix2 j k))
    (hC : ∀ (j : Fin 64) (q : Fin 2), C (ix2 j q) = Wh (ix2 q j))
    (hb : ∀ j : Fin 64, b (ix2 (0 : Fin 1) j) = bl (ix1 j))
    (hc : ∀ q : Fin 2, c (ix2 (0 : Fin 1) q) = bh (ix1 q)) (P : Fin 100000) (q : Fin 2) :
    tiledAt S R X A B C b c P q = layerAt S D X Wl bl Wr Wh bh P q := by
  unfold tiledAt layerAt
  rw [hc]
  refine congrArg (· + bh (ix1 q)) (Finset.sum_congr rfl fun j _ => ?_)
  rw [hC, hb, add_right_comm]
  refine congrArg (fun v => max v _ * _) (congrArg₂ (· + ·) (congrArg (· + bl (ix1 j)) (Finset.sum_congr rfl fun k _ => ?_))
    (Finset.sum_congr rfl fun k _ => ?_))
  · rw [hR, hA, Ideal.mul_div_one _ _ (hD _)]
  · rw [hB]

/-- As whole arrays. -/
theorem tiled_eq_layer
    {S : (⟨2, ![100000, 64]⟩ : Shape).Idx → EReal} {R : (⟨2, ![100000, 1]⟩ : Shape).Idx → EReal}
    {X : (⟨2, ![100000, 64]⟩ : Shape).Idx → EReal} {A B : (⟨2, ![64, 64]⟩ : Shape).Idx → EReal}
    {C : (⟨2, ![64, 2]⟩ : Shape).Idx → EReal} {b : (⟨2, ![1, 64]⟩ : Shape).Idx → EReal}
    {c : (⟨2, ![1, 2]⟩ : Shape).Idx → EReal}
    {D : (⟨1, ![100000]⟩ : Shape).Idx → EReal} {Wl Wr : (⟨2, ![64, 64]⟩ : Shape).Idx → EReal}
    {bl : (⟨1, ![64]⟩ : Shape).Idx → EReal} {Wh : (⟨2, ![2, 64]⟩ : Shape).Idx → EReal}
    {bh : (⟨1, ![2]⟩ : Shape).Idx → EReal}
    (hR : ∀ P : Fin 100000, R (ix2 P (0 : Fin 1)) = Ideal.div 1 (D (ix1 P)))
    (hD : ∀ P : Fin 100000, D (ix1 P) ≠ 0)
    (hA : ∀ (k j : Fin 64), A (ix2 k j) = Wl (ix2 j k))
    (hB : ∀ (k j : Fin 64), B (ix2 k j) = Wr (ix2 j k))
    (hC : ∀ (j : Fin 64) (q : Fin 2), C (ix2 j q) = Wh (ix2 q j))
    (hb : ∀ j : Fin 64, b (ix2 (0 : Fin 1) j) = bl (ix1 j))
    (hc : ∀ q : Fin 2, c (ix2 (0 : Fin 1) q) = bh (ix1 q)) :
    tiled S R X A B C b c = layer S D X Wl bl Wr Wh bh :=
  funext fun i => tiledAt_eq_layerAt hR hD hA hB hC hb hc (i 0) (i 1)

end Cert.Sage

end
-- ==== Proof.SageTile.lean ====
/-
  One tile of the fused layer, read at an entry.

  A tile holds 5000 consecutive nodes. From the tile's rows of the neighbour sums `s`, the column of reciprocal
  degrees `r`, the rows of the node features `x`, and the whole (already transposed) weights `A`, `B`, `C` and
  bias rows `b`, `c`, the body computes, at node `p` and output channel `q`,

      Σ_j max( Σ_k (s(p,k) · r(p)) · A(k,j) + Σ_k x(p,k) · B(k,j) + b(j) , 0 ) · C(j,q) + c(q).

  On the extended reals a change of float format is the identity and a matrix product into the zero accumulator is
  the plain sum over the contracted index, so the body's one stored value is exactly this expression.
-/
import proofs.«125915_j16913581212178_2_alg».proof.Proof.Gen.KernelIdeal.Skeleton
import proofs.«125915_j16913581212178_2_alg».proof.Proof.LibDot
import proofs.«125915_j16913581212178_2_alg».proof.Proof.LibColumn
import proofs.«125915_j16913581212178_2_alg».proof.Proof.SageSpec
import Idealize.ShloMosaic.Lib.ValueLayout
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The hidden-layer products contract axis 1 of a [5000, 64] tile with axis 0 of a [64, 64] weight. -/
theorem plain_hidden : Cert.LibDot.Plain dot_S5000x64_S64x64_S5000x64_1_0_0_1_n_n where
  hrank := rfl
  hs := rfl
  hl0 := fun j k => by
    unfold DotDims.lhsIdx
    rw [dif_neg (show ¬(0 : Fin S5000x64.rank) ∈ dot_S5000x64_S64x64_S5000x64_1_0_0_1_n_n.lhsBatch by decide),
      dif_pos (show (0 : Fin S5000x64.rank) ∈ dot_S5000x64_S64x64_S5000x64_1_0_0_1_n_n.lhsNonContracting by decide)]
    rfl
  hl1 := fun j k => dot_S5000x64_S64x64_S5000x64_1_0_0_1_n_n.lhsIdx_val_of_single rfl j k
  hr0 := fun j k => dot_S5000x64_S64x64_S5000x64_1_0_0_1_n_n.rhsIdx_val_of_single rfl j k
  hr1 := fun j k => by
    unfold DotDims.rhsIdx
    rw [dif_neg (show ¬(1 : Fin S64x64.rank) ∈ dot_S5000x64_S64x64_S5000x64_1_0_0_1_n_n.rhsBatch by decide),
      dif_pos (show (1 : Fin S64x64.rank) ∈ dot_S5000x64_S64x64_S5000x64_1_0_0_1_n_n.rhsNonContracting by decide)]
    rfl

/-- The head product contracts axis 1 of a [5000, 64] tile with axis 0 of the [64, 2] head weight. -/
theorem plain_head : Cert.LibDot.Plain dot_S5000x64_S64x2_S5000x2_1_0_0_1_n_n where
  hrank := rfl
  hs := rfl
  hl0 := fun j k => by
    unfold DotDims.lhsIdx
    rw [dif_neg (show ¬(0 : Fin S5000x64.rank) ∈ dot_S5000x64_S64x2_S5000x2_1_0_0_1_n_n.lhsBatch by decide),
      dif_pos (show (0 : Fin S5000x64.rank) ∈ dot_S5000x64_S64x2_S5000x2_1_0_0_1_n_n.lhsNonContracting by decide)]
    rfl
  hl1 := fun j k => dot_S5000x64_S64x2_S5000x2_1_0_0_1_n_n.lhsIdx_val_of_single rfl j k
  hr0 := fun j k => dot_S5000x64_S64x2_S5000x2_1_0_0_1_n_n.rhsIdx_val_of_single rfl j k
  hr1 := fun j k => by
    unfold DotDims.rhsIdx
    rw [dif_neg (show ¬(1 : Fin S64x2.rank) ∈ dot_S5000x64_S64x2_S5000x2_1_0_0_1_n_n.rhsBatch by decide),
      dif_pos (show (1 : Fin S64x2.rank) ∈ dot_S5000x64_S64x2_S5000x2_1_0_0_1_n_n.rhsNonContracting by decide)]
    rfl

/-- The tile's stored value at node `p`, channel `q`. -/
theorem tile_apply (s : Vec Ideal S5000x64 .f32) (r : Vec Ideal S5000x1 .f32) (x : Vec Ideal S5000x64 .f32)
    (A B : Vec Ideal S64x64 .f32) (C : Vec Ideal S64x2 .f32) (b : Vec Ideal S1x64 .f32) (c : Vec Ideal S1x2 .f32)
    (p : Fin 5000) (q : Fin 2) :
    k0_pay1 (F := Ideal) s r x A B C b c (ix2 p q)
      = (∑ j : Fin 64, max ((∑ k : Fin 64, (s (ix2 p k) * r (ix2 p (0 : Fin 1))) * A (ix2 k j))
              + (∑ k : Fin 64, x (ix2 p k) * B (ix2 k j)) + b (ix2 (0 : Fin 1) j))
            (Ideal.ofBits .f32 0x00000000#32) * C (ix2 j q))
        + c (ix2 (0 : Fin 1) q) := by
  unfold k0_pay1
  simp only [addf_apply, Cert.LibDot.matmul_ix2 plain_hidden, Cert.LibDot.matmul_ix2 plain_head, truncf_apply,
    maximumf_apply, mulf_apply, broadcast_apply, shapeCast_self, broadcastTo_a1_ab_apply, broadcastTo_1b_ab_apply]
  rfl

/-- A tile whose operands are the whole arrays' entries for node `P` (its rows of the sums, the column and the
    features; the weights and bias rows entire) stores the tiled arrangement of the whole arrays at node `P`. -/
theorem tile_eq_tiledAt (s : Vec Ideal S5000x64 .f32) (r : Vec Ideal S5000x1 .f32) (x : Vec Ideal S5000x64 .f32)
    (A B : Vec Ideal S64x64 .f32) (C : Vec Ideal S64x2 .f32) (b : Vec Ideal S1x64 .f32) (c : Vec Ideal S1x2 .f32)
    (S : (⟨2, ![100000, 64]⟩ : Shape).Idx → EReal) (R : (⟨2, ![100000, 1]⟩ : Shape).Idx → EReal)
    (X : (⟨2, ![100000, 64]⟩ : Shape).Idx → EReal) (AA BB : (⟨2, ![64, 64]⟩ : Shape).Idx → EReal)
    (CC : (⟨2, ![64, 2]⟩ : Shape).Idx → EReal) (bb : (⟨2, ![1, 64]⟩ : Shape).Idx → EReal)
    (cc : (⟨2, ![1, 2]⟩ : Shape).Idx → EReal) (p : Fin 5000) (q : Fin 2) (P : Fin 100000)
    (h0 : ∀ k : Fin 64, s (ix2 p k) = S (ix2 P k)) (h1 : r (ix2 p (0 : Fin 1)) = R (ix2 P (0 : Fin 1)))
    (h2 : ∀ k : Fin 64, x (ix2 p k) = X (ix2 P k)) (h3 : ∀ k j : Fin 64, A (ix2 k j) = AA (ix2 k j))
    (h5 : ∀ k j : Fin 64, B (ix2 k j) = BB (ix2 k j)) (h6 : ∀ j : Fin 64, C (ix2 j q) = CC (ix2 j q))
    (h4 : ∀ j : Fin 64, b (ix2 (0 : Fin 1) j) = bb (ix2 (0 : Fin 1) j))
    (h7 : c (ix2 (0 : Fin 1) q) = cc (ix2 (0 : Fin 1) q)) :
    k0_pay1 (F := Ideal) s r x A B C b c (ix2 p q) = Cert.Sage.tiledAt S R X AA BB CC bb cc P q := by
  rw [tile_apply]
  unfold Cert.Sage.tiledAt
  simp only [h0, h1, h2, h3, h4, h5, h6, h7]

end Cert.KernelIdeal.Tile

end
-- ==== Proof.SageArray.lean ====
/-
  From tiles to the whole result.

  The grid has 20 points; point `t` is handed rows 5000·t … 5000·t + 4999 of the neighbour sums, of the reciprocal
  column and of the node features, and the whole of each weight and bias, and writes back rows 5000·t … 5000·t + 4999
  of the [100000, 2] result. A block's coordinate on an axis is (block index) × (block extent) + (coordinate inside
  the block). So what point `t` writes at (p, q) is the tiled arrangement of the whole arrays at node 5000·t + p, the
  20 blocks of rows tile the result (node P lies in block P / 5000), and the result array ends holding the tiled
  arrangement of the arrays the region was handed.
-/
import proofs.«125915_j16913581212178_2_alg».proof.Proof.Gen.KernelIdeal.Value
import proofs.«125915_j16913581212178_2_alg».proof.Proof.SageTile
import proofs.«125915_j16913581212178_2_alg».proof.Proof.SageSpec
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The row-tiled windows (neighbour sums, reciprocal column, features, result) sit at block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0 :=
  (by decide +kernel : ∀ t : Fin grid0.N, _)

/-- The weights and biases sit at block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each window's block at a point, read off ANY array of the window's shape

A block read is precomposition with the block's embedding: point `t`'s block of a row-tiled window embeds (p, k) at
(5000·t + p, k); the block of a window that does not move is the whole array. -/

/-- Neighbour sums: rows 5000·t … of a [100000, 64] array. -/
theorem sums_emb (t : Fin cfg0.N) (p : Fin 5000) (k : Fin 64) (P : Fin 100000) (hP : P.val = 5000 * t.val + p.val) :
    ((cfg0.win 0).blk t).view.emb (ix2 p k) = ix2 P k := by
  obtain ⟨e0, e1, -⟩ := idx_rows t
  funext a; apply Fin.ext
  match a with
  | ⟨0, _⟩ => show win0_0.index t (0 : Fin 2) * 5000 + 1 * p.val = P.val; omega
  | ⟨1, _⟩ => show win0_0.index t (1 : Fin 2) * 64 + 1 * k.val = k.val; omega

theorem sums_read (t : Fin cfg0.N) (p : Fin 5000) (k : Fin 64) (P : Fin 100000) (hP : P.val = 5000 * t.val + p.val)
    (f : S100000x64.Idx → EReal) :
    ((cfg0.win 0).blk t).view.read (Elt Ideal) f (ix2 p k) = f (ix2 P k) := by
  rw [View.read_apply, sums_emb t p k P hP]
  rfl

/-- Reciprocal column: rows 5000·t … of a [100000, 1] array. -/
theorem recip_emb (t : Fin cfg0.N) (p : Fin 5000) (k : Fin 1) (P : Fin 100000) (hP : P.val = 5000 * t.val + p.val) :
    ((cfg0.win 1).blk t).view.emb (ix2 p k) = ix2 P k := by
  obtain ⟨-, -, e0, e1, -⟩ := idx_rows t
  funext a; apply Fin.ext
  match a with
  | ⟨0, _⟩ => show win0_1.index t (0 : Fin 2) * 5000 + 1 * p.val = P.val; omega
  | ⟨1, _⟩ => show win0_1.index t (1 : Fin 2) * 1 + 1 * k.val = k.val; omega

theorem recip_read (t : Fin cfg0.N) (p : Fin 5000) (k : Fin 1) (P : Fin 100000) (hP : P.val = 5000 * t.val + p.val)
    (f : S100000x1.Idx → EReal) :
    ((cfg0.win 1).blk t).view.read (Elt Ideal) f (ix2 p k) = f (ix2 P k) := by
  rw [View.read_apply, recip_emb t p k P hP]
  rfl

/-- Features: rows 5000·t … of a [100000, 64] array. -/
theorem feat_emb (t : Fin cfg0.N) (p : Fin 5000) (k : Fin 64) (P : Fin 100000) (hP : P.val = 5000 * t.val + p.val) :
    ((cfg0.win 2).blk t).view.emb (ix2 p k) = ix2 P k := by
  obtain ⟨-, -, -, -, e0, e1, -⟩ := idx_rows t
  funext a; apply Fin.ext
  match a with
  | ⟨0, _⟩ => show win0_2.index t (0 : Fin 2) * 5000 + 1 * p.val = P.val; omega
  | ⟨1, _⟩ => show win0_2.index t (1 : Fin 2) * 64 + 1 * k.val = k.val; omega

theorem feat_read (t : Fin cfg0.N) (p : Fin 5000) (k : Fin 64) (P : Fin 100000) (hP : P.val = 5000 * t.val + p.val)
    (f : S100000x64.Idx → EReal) :
    ((cfg0.win 2).blk t).view.read (Elt Ideal) f (ix2 p k) = f (ix2 P k) := by
  rw [View.read_apply, feat_emb t p k P hP]
  rfl

/-- Result: rows 5000·t … of the [100000, 2] array. -/
theorem out_emb (t : Fin cfg0.N) (p : Fin 5000) (k : Fin 2) (P : Fin 100000) (hP : P.val = 5000 * t.val + p.val) :
    ((cfg0.win 8).blk t).view.emb (ix2 p k) = ix2 P k := by
  obtain ⟨-, -, -, -, -, -, e0, e1⟩ := idx_rows t
  funext a; apply Fin.ext
  match a with
  | ⟨0, _⟩ => show win0_8.index t (0 : Fin 2) * 5000 + 1 * p.val = P.val; omega
  | ⟨1, _⟩ => show win0_8.index t (1 : Fin 2) * 2 + 1 * k.val = k.val; omega

theorem out_read (t : Fin cfg0.N) (p : Fin 5000) (k : Fin 2) (P : Fin 100000) (hP : P.val = 5000 * t.val + p.val)
    (f : S100000x2.Idx → EReal) :
    ((cfg0.win 8).blk t).view.read (Elt Ideal) f (ix2 p k) = f (ix2 P k) := by
  rw [View.read_apply, out_emb t p k P hP]
  rfl

/-- First weight (transposed): the whole [64, 64] array. -/
theorem wl_emb (t : Fin cfg0.N) (a : Fin 64) (b : Fin 64) :
    ((cfg0.win 3).blk t).view.emb (ix2 a b) = ix2 a b := by
  obtain ⟨e0, e1, -⟩ := idx_whole t
  funext d; apply Fin.ext
  match d with
  | ⟨0, _⟩ => show win0_3.index t (0 : Fin 2) * 64 + 1 * a.val = a.val; omega
  | ⟨1, _⟩ => show win0_3.index t (1 : Fin 2) * 64 + 1 * b.val = b.val; omega

theorem wl_read (t : Fin cfg0.N) (a : Fin 64) (b : Fin 64) (f : S64x64.Idx → EReal) :
    ((cfg0.win 3).blk t).view.read (Elt Ideal) f (ix2 a b) = f (ix2 a b) := by
  rw [View.read_apply, wl_emb t a b]
  rfl

/-- Hidden bias row: the whole [1, 64] array. -/
theorem bl_emb (t : Fin cfg0.N) (a : Fin 1) (b : Fin 64) :
    ((cfg0.win 4).blk t).view.emb (ix2 a b) = ix2 a b := by
  obtain ⟨-, -, e0, e1, -⟩ := idx_whole t
  funext d; apply Fin.ext
  match d with
  | ⟨0, _⟩ => show win0_4.index t (0 : Fin 2) * 1 + 1 * a.val = a.val; omega
  | ⟨1, _⟩ => show win0_4.index t (1 : Fin 2) * 64 + 1 * b.val = b.val; omega

theorem bl_read (t : Fin cfg0.N) (a : Fin 1) (b : Fin 64) (f : S1x64.Idx → EReal) :
    ((cfg0.win 4).blk t).view.read (Elt Ideal) f (ix2 a b) = f (ix2 a b) := by
  rw [View.read_apply, bl_emb t a b]
  rfl

/-- Second weight (transposed): the whole [64, 64] array. -/
theorem wr_emb (t : Fin cfg0.N) (a : Fin 64) (b : Fin 64) :
    ((cfg0.win 5).blk t).view.emb (ix2 a b) = ix2 a b := by
  obtain ⟨-, -, -, -, e0, e1, -⟩ := idx_whole t
  funext d; apply Fin.ext
  match d with
  | ⟨0, _⟩ => show win0_5.index t (0 : Fin 2) * 64 + 1 * a.val = a.val; omega
  | ⟨1, _⟩ => show win0_5.index t (1 : Fin 2) * 64 + 1 * b.val = b.val; omega

theorem wr_read (t : Fin cfg0.N) (a : Fin 64) (b : Fin 64) (f : S64x64.Idx → EReal) :
    ((cfg0.win 5).blk t).view.read (Elt Ideal) f (ix2 a b) = f (ix2 a b) := by
  rw [View.read_apply, wr_emb t a b]
  rfl

/-- Head weight (transposed): the whole [64, 2] array. -/
theorem wh_emb (t : Fin cfg0.N) (a : Fin 64) (b : Fin 2) :
    ((cfg0.win 6).blk t).view.emb (ix2 a b) = ix2 a b := by
  obtain ⟨-, -, -, -, -, -, e0, e1, -⟩ := idx_whole t
  funext d; apply Fin.ext
  match d with
  | ⟨0, _⟩ => show win0_6.index t (0 : Fin 2) * 64 + 1 * a.val = a.val; omega
  | ⟨1, _⟩ => show win0_6.index t (1 : Fin 2) * 2 + 1 * b.val = b.val; omega

theorem wh_read (t : Fin cfg0.N) (a : Fin 64) (b : Fin 2) (f : S64x2.Idx → EReal) :
    ((cfg0.win 6).blk t).view.read (Elt Ideal) f (ix2 a b) = f (ix2 a b) := by
  rw [View.read_apply, wh_emb t a b]
  rfl

/-- Head bias row: the whole [1, 2] array. -/
theorem bh_emb (t : Fin cfg0.N) (a : Fin 1) (b : Fin 2) :
    ((cfg0.win 7).blk t).view.emb (ix2 a b) = ix2 a b := by
  obtain ⟨-, -, -, -, -, -, -, -, e0, e1⟩ := idx_whole t
  funext d; apply Fin.ext
  match d with
  | ⟨0, _⟩ => show win0_7.index t (0 : Fin 2) * 1 + 1 * a.val = a.val; omega
  | ⟨1, _⟩ => show win0_7.index t (1 : Fin 2) * 2 + 1 * b.val = b.val; omega

theorem bh_read (t : Fin cfg0.N) (a : Fin 1) (b : Fin 2) (f : S1x2.Idx → EReal) :
    ((cfg0.win 7).blk t).view.read (Elt Ideal) f (ix2 a b) = f (ix2 a b) := by
  rw [View.read_apply, bh_emb t a b]
  rfl

/-! ## What a point writes back, the cover, the final array -/

/-- The tiled arrangement of the arrays the region is handed. -/
abbrev handed (c : Dev nD) : S100000x2.Idx → EReal :=
  Cert.Sage.tiled (V m c main_v13) (V m c main_v22) (V m c main_arg0) (V m c main_v23) (V m c main_v24) (V m c main_v25)
    (V m c main_v26) (V m c main_v27)

/-- What point `t` writes back is block `t` of the tiled arrangement of the arrays the region is handed. -/
theorem flushed_eq (c : Dev nD) (t : Fin cfg0.N) :
    (dats m 0 c).flushed 8 t = ((cfg0.win 8).blk t).view.read (Elt Ideal)
      (Cert.Sage.tiled (V m c main_v13) (V m c main_v22) (V m c main_arg0) (V m c main_v23) (V m c main_v24)
        (V m c main_v25) (V m c main_v26) (V m c main_v27)) := by
  rw [flushed8]
  unfold out0_8
  rw [View.canon_unit_zero hz]
  simp only [View.ld_unit_zero (S := S5000x64) hz, View.ld_unit_zero (S := S5000x1) hz, View.ld_unit_zero (S := S64x64) hz,
    View.ld_unit_zero (S := S64x2) hz, View.ld_unit_zero (S := S1x64) hz, View.ld_unit_zero (S := S1x2) hz]
  funext y
  obtain ⟨p, q, rfl⟩ : ∃ (p : Fin 5000) (q : Fin 2), y = ix2 p q := ⟨y 0, y 1, eq_ix2 y⟩
  have hN : grid0.N = 20 := N_0
  have ht : t.val < 20 := hN ▸ t.isLt
  obtain ⟨P, hP⟩ : ∃ P : Fin 100000, P.val = 5000 * t.val + p.val := ⟨⟨5000 * t.val + p.val, by have := p.isLt; omega⟩, rfl⟩
  rw [out_read t p q P hP, Cert.Sage.tiled_apply]
  show k0_pay1 (iblk m c 0 t) (iblk m c 1 t) (iblk m c 2 t) (iblk m c 3 t) (iblk m c 5 t) (iblk m c 6 t) (iblk m c 4 t)
      (iblk m c 7 t) (ix2 p q) = _
  exact Cert.KernelIdeal.Tile.tile_eq_tiledAt (iblk m c 0 t) (iblk m c 1 t) (iblk m c 2 t) (iblk m c 3 t) (iblk m c 5 t)
    (iblk m c 6 t) (iblk m c 4 t) (iblk m c 7 t) (V m c main_v13) (V m c main_v22) (V m c main_arg0) (V m c main_v23)
    (V m c main_v24) (V m c main_v25) (V m c main_v26) (V m c main_v27) p q P
    (fun k => sums_read t p k P hP (V m c main_v13)) (recip_read t p 0 P hP (V m c main_v22))
    (fun k => feat_read t p k P hP (V m c main_arg0)) (fun k j => wl_read t k j (V m c main_v23))
    (fun k j => wr_read t k j (V m c main_v24)) (fun j => wh_read t j q (V m c main_v25))
    (fun j => bl_read t 0 j (V m c main_v26)) (bh_read t 0 q (V m c main_v27))

/-- An index of the result is in point `t`'s block iff each coordinate is in the block's range on its axis. -/
theorem mem_blk (t : Fin cfg0.N) (i : S100000x2.Idx) :
    i ∈ ((cfg0.win 8).blk t).view.set ↔ ∀ a : Fin 2, win0_8.index t a * S5000x2.size a ≤ (i a).val ∧ (i a).val < win0_8.index t a * S5000x2.size a + S5000x2.size a := by
  show i ∈ ((View.whole main_v28).slice (win0_8.rect t)).set ↔ _
  rw [View.set_slice_whole, Rect.mem_set_unit]
  exact Iff.rfl

/-- Every node's row lies in the block of the point (node / 5000). -/
theorem cover (i : S100000x2.Idx) : ∃ t : Fin cfg0.N, (cfg0.win 8).flush t = true ∧ i ∈ ((cfg0.win 8).blk t).view.set := by
  have hi0 : (i 0).val < 100000 := (i 0).isLt
  have hi1 : (i 1).val < 2 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, -, -, e0, e1⟩ := idx_rows t
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 2 ≤ (i 1).val ∧ (i 1).val < win0_8.index t (1 : Fin 2) * 2 + 2
    omega

/-- The result array after the run. -/
theorem final (c : Dev nD) : (dats m 0 c).arrAt 8 cfg0.N = handed m c :=
  (dats m 0 c).arrAt_eq_of_cover 8 (handed m c) (fun t _ => flushed_eq m c t) cover

/-- The run: the result array ends holding the tiled arrangement of the arrays the region is handed; the arguments
    are unchanged. -/
theorem run : θ_run defs (onTc (τ := τ) (main (F := Ideal))) ⟨m, fun _ => 0, ρ⟩ fun r => ∀ c : Dev nD,
      r.2.mem ((c : Thread nD τ).loc main_v28) = handed m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.SageEntry.lean ====
/-
  The arrays the tiled region is handed, read at an entry.

  Before the region the program forms, from the arguments: the neighbour sums and the clamped in-degree (a gather and
  two scatter-adds of the edge list, operation for operation the reference's own stages, so they are named by those
  stages and enter only as unknown arrays); the reciprocal of the clamped degree as a column; the three weights transposed; the two
  biases as rows. Each is read here at coordinates.
-/
import proofs.«125915_j16913581212178_2_alg».proof.Proof.Gen.KernelIdeal.Frame
import proofs.«125915_j16913581212178_2_alg».proof.Proof.Gen.ReferenceIdeal.Read
import proofs.«125915_j16913581212178_2_alg».proof.Proof.SageSpec
import proofs.«125915_j16913581212178_2_alg».proof.Proof.LibColumn
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ)

/-- The neighbour sums the region is handed are the reference's stage of the same name. -/
theorem sums_eq (c : Dev nD) : (V m c main_v13 : S100000x64.Idx → EReal)
    = Cert.ReferenceIdeal.Read.val_main_v13 (F := Ideal) (m ((c : Thread nD τ).loc main_arg0)) (m ((c : Thread nD τ).loc main_arg1)) := by
  dsimp only [Gen.V, Gen.hostOps0]
  after_results <;> rfl

/-- The reciprocal column, as an operation of the reference's clamped-degree stage. -/
theorem recip_eq (c : Dev nD) : (V m c main_v22 : S100000x1.Idx → EReal)
    = shapeCast S100000x1 (Host.divf (broadcastInDim S100000 ![] bcast_S_S100000 (constant (F := Ideal) S_ .f32 0x3F800000#32))
        (Cert.ReferenceIdeal.Read.val_main_v19 (F := Ideal) (m ((c : Thread nD τ).loc main_arg1)))) shapeCasts_S100000_S100000x1 := by
  dsimp only [Gen.V, Gen.hostOps0]
  after_results <;> rfl

/-- A column cast from the quotient of the constant one by a vector `d` reads, at row `P`, one over `d` there. -/
theorem recip_col_apply (d : S100000.Idx → EReal) (P : Fin 100000) :
    shapeCast S100000x1 (Host.divf (broadcastInDim S100000 ![] bcast_S_S100000 (constant (F := Ideal) S_ .f32 0x3F800000#32)) d)
        shapeCasts_S100000_S100000x1 (ix2 P (0 : Fin 1)) = Ideal.div 1 (d (ix1 P)) := by
  rw [shapeCast_a_a1_apply]
  show Ideal.div (Ideal.ofBits .f32 0x3F800000#32) (d (ix1 P)) = _
  rw [Cert.Sage.one_word]

/-- The reciprocal column at node `P` is one over the clamped degree. -/
theorem recip_at (c : Dev nD) (P : Fin 100000) : (V m c main_v22 : S100000x1.Idx → EReal) (ix2 P (0 : Fin 1))
    = Ideal.div 1 (Cert.ReferenceIdeal.Read.val_main_v19 (F := Ideal) (m ((c : Thread nD τ).loc main_arg1)) (ix1 P)) := by
  rw [recip_eq m c]
  exact recip_col_apply _ P

/-- The clamped degree is a maximum with one, so it is at least one and not zero, whatever the degree. -/
theorem degree_ne_zero (x1 : (⟨Cert.ReferenceIdeal.S2x800000, .i32⟩ : BufTy).Contents (Elt Ideal)) (P : Fin 100000) :
    Cert.ReferenceIdeal.Read.val_main_v19 (F := Ideal) x1 (ix1 P) ≠ 0 := by
  rw [Cert.ReferenceIdeal.Read.val_main_v19_apply]
  generalize Cert.ReferenceIdeal.Read.val_main_v17 (F := Ideal) x1 (ix1 P) = d
  rw [Cert.ReferenceIdeal.Read.val_main_v18_apply, Cert.ReferenceIdeal.Read.val_main_cst_3_apply, Ideal.maximumf_def,
    Ideal.ofBits_def]
  exact Cert.Sage.max_one_ne_zero d

theorem wl_eq (c : Dev nD) : (V m c main_v23 : S64x64.Idx → EReal)
    = transpose S64x64 [1, 0] (m ((c : Thread nD τ).loc main_arg2)) transposes_S64x64_S64x64_1_0 := by
  dsimp only [Gen.V, Gen.hostOps0]
  after_results <;> rfl

/-- The first weight is handed over transposed. -/
theorem wl_at (c : Dev nD) (k j : Fin 64) : (V m c main_v23 : S64x64.Idx → EReal) (ix2 k j)
    = (m ((c : Thread nD τ).loc main_arg2) : S64x64.Idx → EReal) (ix2 j k) := by
  rw [wl_eq m c, transpose_ix2_apply]

theorem wr_eq (c : Dev nD) : (V m c main_v24 : S64x64.Idx → EReal)
    = transpose S64x64 [1, 0] (m ((c : Thread nD τ).loc main_arg4)) transposes_S64x64_S64x64_1_0 := by
  dsimp only [Gen.V, Gen.hostOps0]
  after_results <;> rfl

/-- The second weight is handed over transposed. -/
theorem wr_at (c : Dev nD) (k j : Fin 64) : (V m c main_v24 : S64x64.Idx → EReal) (ix2 k j)
    = (m ((c : Thread nD τ).loc main_arg4) : S64x64.Idx → EReal) (ix2 j k) := by
  rw [wr_eq m c, transpose_ix2_apply]

theorem wh_eq (c : Dev nD) : (V m c main_v25 : S64x2.Idx → EReal)
    = transpose S64x2 [1, 0] (m ((c : Thread nD τ).loc main_arg5)) transposes_S2x64_S64x2_1_0 := by
  dsimp only [Gen.V, Gen.hostOps0]
  after_results <;> rfl

/-- The head weight is handed over transposed. -/
theorem wh_at (c : Dev nD) (j : Fin 64) (q : Fin 2) : (V m c main_v25 : S64x2.Idx → EReal) (ix2 j q)
    = (m ((c : Thread nD τ).loc main_arg5) : S2x64.Idx → EReal) (ix2 q j) := by
  rw [wh_eq m c, transpose_ix2_apply]

theorem bl_eq (c : Dev nD) : (V m c main_v26 : S1x64.Idx → EReal)
    = shapeCast S1x64 (m ((c : Thread nD τ).loc main_arg3)) shapeCasts_S64_S1x64 := by
  dsimp only [Gen.V, Gen.hostOps0]
  after_results <;> rfl

/-- The hidden bias is handed over as a row. -/
theorem bl_at (c : Dev nD) (j : Fin 64) : (V m c main_v26 : S1x64.Idx → EReal) (ix2 (0 : Fin 1) j)
    = (m ((c : Thread nD τ).loc main_arg3) : S64.Idx → EReal) (ix1 j) := by
  rw [bl_eq m c, shapeCast_a_1a_apply]

theorem bh_eq (c : Dev nD) : (V m c main_v27 : S1x2.Idx → EReal)
    = shapeCast S1x2 (m ((c : Thread nD τ).loc main_arg6)) shapeCasts_S2_S1x2 := by
  dsimp only [Gen.V, Gen.hostOps0]
  after_results <;> rfl

/-- The head bias is handed over as a row. -/
theorem bh_at (c : Dev nD) (q : Fin 2) : (V m c main_v27 : S1x2.Idx → EReal) (ix2 (0 : Fin 1) q)
    = (m ((c : Thread nD τ).loc main_arg6) : S2.Idx → EReal) (ix1 q) := by
  rw [bh_eq m c, shapeCast_a_1a_apply]

end Cert.KernelIdeal.Entry

end
-- ==== Proof.SageBridge.lean ====
/-
  The tiled arrangement of the arrays the region is handed is the layer of the arguments.

  The handed arrays are: the neighbour sums and (through its reciprocal, as a column) the clamped degree — both the
  reference's own stages of the arguments —, the features, the three weights transposed, the biases as rows. The
  clamped degree is at least one, so the reciprocal column times a neighbour sum is their quotient, and the tiled
  arrangement is the layer.
-/
import proofs.«125915_j16913581212178_2_alg».proof.Proof.SageArray
import proofs.«125915_j16913581212178_2_alg».proof.Proof.SageEntry

noncomputable section

namespace Cert.KernelIdeal.Bridge

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

theorem handed_eq (c : Dev nD) :
    Cert.KernelIdeal.Whole.handed m c
      = Cert.Sage.layer
          (Cert.ReferenceIdeal.Read.val_main_v13 (F := Ideal) (m ((c.tc : Thread nD τ).loc main_arg0)) (m ((c.tc : Thread nD τ).loc main_arg1)))
          (Cert.ReferenceIdeal.Read.val_main_v19 (F := Ideal) (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  have hS := Cert.KernelIdeal.Entry.sums_eq m c
  have hX := V_main_arg0 m c
  refine (Cert.Sage.tiled_eq_layer
    (D := Cert.ReferenceIdeal.Read.val_main_v19 (F := Ideal) (m ((c.tc : Thread nD τ).loc main_arg1)))
    (Wl := m ((c.tc : Thread nD τ).loc main_arg2)) (Wr := m ((c.tc : Thread nD τ).loc main_arg4))
    (bl := m ((c.tc : Thread nD τ).loc main_arg3)) (Wh := m ((c.tc : Thread nD τ).loc main_arg5))
    (bh := m ((c.tc : Thread nD τ).loc main_arg6))
    (Cert.KernelIdeal.Entry.recip_at m c) (Cert.KernelIdeal.Entry.degree_ne_zero _)
    (Cert.KernelIdeal.Entry.wl_at m c) (Cert.KernelIdeal.Entry.wr_at m c) (Cert.KernelIdeal.Entry.wh_at m c)
    (Cert.KernelIdeal.Entry.bl_at m c) (Cert.KernelIdeal.Entry.bh_at m c)).trans ?_
  rw [hS, hX]

end Cert.KernelIdeal.Bridge

end
-- ==== Proof.SageRef.lean ====
/-
  The reference, stage by stage, is the layer.

  Reading the reference's last stage at node `P`, channel `q` and following its operands down: the head product
  contracts the hidden axis against the transposed head weight; the hidden value is the maximum with zero of the sum
  (neighbour product + bias) + self product; the neighbour product contracts the quotient of the neighbour sums by
  the clamped degree, broadcast along the row, against the transposed weight. The neighbour sums and the clamped
  degree are kept as the reference's own stages (a gather and two scatter-adds of the edge list): of them only that
  the clamped degree is a maximum with one is ever used.
-/
import proofs.«125915_j16913581212178_2_alg».proof.Proof.Gen.ReferenceIdeal.Read
import proofs.«125915_j16913581212178_2_alg».proof.Proof.SageSpec

noncomputable section

namespace Cert.ReferenceIdeal.Layer

open Cert.ReferenceIdeal Cert.ReferenceIdeal.Read Idealize.ShloMosaic Idealize.ShloMosaic.ValueIdx

variable (x0 : (⟨S100000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S2x64, .f32⟩ : BufTy).Contents (Elt Ideal))
  (x6 : (⟨S2, .f32⟩ : BufTy).Contents (Elt Ideal))

/-- The quotient stage at (P, k): the neighbour sum over the node's clamped degree. -/
theorem quotient_at (P : Fin 100000) (k : Fin 64) :
    val_main_v22 (F := Ideal) x0 x1 (ix2 P k)
      = Ideal.div (val_main_v13 (F := Ideal) x0 x1 (ix2 P k)) (val_main_v19 (F := Ideal) x1 (ix1 P)) := by
  have e : idx_main_v20 (idx_main_v21 (ix2 P k)) = ix1 P := funext fun a => match a with | ⟨0, _⟩ => rfl
  rw [val_main_v22_apply, val_main_v21_apply, val_main_v20_apply, e]
  rfl

/-- The hidden pre-activation at (P, j). -/
theorem hidden_at (P : Fin 100000) (j : Fin 64) :
    val_main_v30 (F := Ideal) x0 x1 x2 x3 x4 (ix2 P j)
      = (∑ k : Fin 64, Ideal.div (val_main_v13 (F := Ideal) x0 x1 (ix2 P k)) (val_main_v19 (F := Ideal) x1 (ix1 P)) * x2 (ix2 j k))
          + x3 (ix1 j) + (∑ k : Fin 64, x0 (ix2 P k) * x4 (ix2 j k)) := by
  have el : ∀ k : Fin 64, lidx_main_v24 (ix2 P j) k = ix2 P k := fun k => funext fun a => match a with
    | ⟨0, _⟩ => rfl
    | ⟨1, _⟩ => rfl
  have er : ∀ k : Fin 64, idx_main_v23 (ridx_main_v24 (ix2 P j) k) = ix2 j k := fun k => funext fun a => match a with
    | ⟨0, _⟩ => rfl
    | ⟨1, _⟩ => rfl
  have eb : idx_main_v25 (idx_main_v26 (ix2 P j)) = ix1 j := funext fun a => match a with | ⟨0, _⟩ => rfl
  have el' : ∀ k : Fin 64, lidx_main_v29 (ix2 P j) k = ix2 P k := fun k => funext fun a => match a with
    | ⟨0, _⟩ => rfl
    | ⟨1, _⟩ => rfl
  have er' : ∀ k : Fin 64, idx_main_v28 (ridx_main_v29 (ix2 P j) k) = ix2 j k := fun k => funext fun a => match a with
    | ⟨0, _⟩ => rfl
    | ⟨1, _⟩ => rfl
  rw [val_main_v30_apply, val_main_v27_apply, val_main_v24_apply, val_main_v26_apply, val_main_v25_apply, eb,
    val_main_v29_apply]
  refine congrArg₂ (· + ·) (congrArg (· + x3 (ix1 j)) (Finset.sum_congr rfl fun k _ => ?_)) (Finset.sum_congr rfl fun k _ => ?_)
  · rw [el, val_main_v23_apply, er, quotient_at]
  · rw [el', val_main_v28_apply, er']

/-- The reference's result at (P, q) is the layer there. -/
theorem ref_at (P : Fin 100000) (q : Fin 2) :
    val_main_v36 (F := Ideal) x0 x1 x2 x3 x4 x5 x6 (ix2 P q)
      = Cert.Sage.layerAt (val_main_v13 (F := Ideal) x0 x1) (val_main_v19 (F := Ideal) x1) x0 x2 x3 x4 x5 x6 P q := by
  have ec : idx_main_v34 (idx_main_v35 (ix2 P q)) = ix1 q := funext fun a => match a with | ⟨0, _⟩ => rfl
  have el : ∀ j : Fin 64, lidx_main_v33 (ix2 P q) j = ix2 P j := fun j => funext fun a => match a with
    | ⟨0, _⟩ => rfl
    | ⟨1, _⟩ => rfl
  have er : ∀ j : Fin 64, idx_main_v32 (ridx_main_v33 (ix2 P q) j) = ix2 q j := fun j => funext fun a => match a with
    | ⟨0, _⟩ => rfl
    | ⟨1, _⟩ => rfl
  rw [val_main_v36_apply, val_main_v35_apply, val_main_v34_apply, ec, val_main_v33_apply]
  unfold Cert.Sage.layerAt
  refine congrArg (· + x6 (ix1 q)) (Finset.sum_congr rfl fun j _ => ?_)
  rw [el, val_main_v32_apply, er, val_main_v31_apply, hidden_at, val_main_call0_v0_apply]
  rfl

/-- The reference's result array is the layer of its own neighbour-sum and clamped-degree stages. -/
theorem ref_eq :
    val_main_v36 (F := Ideal) x0 x1 x2 x3 x4 x5 x6
      = Cert.Sage.layer (val_main_v13 (F := Ideal) x0 x1) (val_main_v19 (F := Ideal) x1) x0 x2 x3 x4 x5 x6 := by
  funext i
  obtain ⟨P, q, rfl⟩ : ∃ (P : Fin 100000) (q : Fin 2), i = ix2 P q := ⟨i 0, i 1, eq_ix2 i⟩
  exact ref_at x0 x1 x2 x3 x4 x5 x6 P q

end Cert.ReferenceIdeal.Layer

end
-- ==== Proof.lean ====
/-
  A mean-aggregating graph layer with a linear head, tiled over the nodes, against its plain reference.

  Both programs first form, from the features and the edge list, the sums of each node's in-neighbours' features and
  the in-degree clamped below by one (the same gather and scatter-adds, operation for operation). The reference then
  computes, for node P and output channel q,

      Σ_j max( Σ_k (sum(P,k) / deg(P)) · Wl(j,k) + bl(j) + Σ_k x(P,k) · Wr(j,k) , 0 ) · Wh(q,j) + bh(q).

  The tiled program forms the reciprocal 1 / deg as a column, the weights transposed and the biases as rows, and hands
  blocks of 5000 nodes to a body that multiplies the sums by the reciprocal, takes the two hidden products, adds them
  and then the bias, clamps at zero and takes the head product. On the extended reals a change of float format is the
  identity, a matrix product into a zero accumulator is the sum over the contracted index, x · (1 / w) = x / w for
  w ≠ 0 (and deg ≥ 1), and addition is commutative and associative: the two programs compute one function of the
  arguments, and no finiteness of the inputs is used.

  The three frame claims are the generated frames (the reference's is its generated run with the result dropped);
  the idealization rewrote nothing, so `preserves` is `True`.
-/
import proofs.«125915_j16913581212178_2_alg».proof.Defs
import proofs.«125915_j16913581212178_2_alg».proof.Proof.Gen.Kernel
import proofs.«125915_j16913581212178_2_alg».proof.Proof.Gen.Kernel.Skeleton
import proofs.«125915_j16913581212178_2_alg».proof.Proof.Gen.Kernel.Launch
import proofs.«125915_j16913581212178_2_alg».proof.Proof.Gen.Kernel.Points
import proofs.«125915_j16913581212178_2_alg».proof.Proof.Gen.Kernel.Frame
import proofs.«125915_j16913581212178_2_alg».proof.Proof.Gen.KernelIdeal
import proofs.«125915_j16913581212178_2_alg».proof.Proof.Gen.KernelIdeal.Skeleton
import proofs.«125915_j16913581212178_2_alg».proof.Proof.Gen.KernelIdeal.Launch
import proofs.«125915_j16913581212178_2_alg».proof.Proof.Gen.KernelIdeal.Points
import proofs.«125915_j16913581212178_2_alg».proof.Proof.Gen.KernelIdeal.Frame
import proofs.«125915_j16913581212178_2_alg».proof.Proof.Gen.ReferenceIdeal
import proofs.«125915_j16913581212178_2_alg».proof.Proof.Gen.Pre_finite_inputs
import proofs.«125915_j16913581212178_2_alg».proof.Proof.Gen.KernelIdeal.Value
import proofs.«125915_j16913581212178_2_alg».proof.Proof.Gen.ReferenceIdeal.Run
import proofs.«125915_j16913581212178_2_alg».proof.Proof.Gen.ReferenceIdeal.Read
import proofs.«125915_j16913581212178_2_alg».proof.Proof.SageBridge
import proofs.«125915_j16913581212178_2_alg».proof.Proof.SageRef
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer of the arguments. -/
theorem algebraic : Cert.algebraic_KernelIdeal_ReferenceIdeal := by
  intro m ρ m' ρ' _ hagree
  refine ⟨fun c => Cert.Sage.layer
      (Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.Read.val_main_v19 (F := Ideal)
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Bridge.handed_eq m c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v36_eq _ _ _ _ _ _ _).trans ?_
    rw [Cert.ReferenceIdeal.Layer.ref_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
